-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512x512 .f32) (main_arg8 : FVec F S1024 .f32) (main_arg9 : FVec F S1024 .f32) (main_arg10 : FVec F S512 .f32) (main_arg11 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S1024x512 .f32) (main_arg5 : FVec F S512x512 .f32) (main_arg6 : FVec F S512 .f32) (main_arg7 : FVec F S512x512 .f32) (main_arg8 : FVec F S1024 .f32) (main_arg9 : FVec F S1024 .f32) (main_arg10 : FVec F S512 .f32) (main_arg11 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x512 .f32) (main_arg1 : FVec F S65536x512 .f32) (main_arg2 : FVec F S1024x512 .f32) (main_arg3 : FVec F S1024 .f32) (main_arg4 : FVec F S1024x512 .f32) (main_arg5 : FVec F S512x512 .f32) (main_arg6 : FVec F S512 .f32) (main_arg7 : FVec F S512x512 .f32) (main_arg8 : FVec F S1024 .f32) (main_arg9 : FVec F S1024 .f32) (main_arg10 : FVec F S512 .f32) (main_arg11 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S65536x512 : Shape := ⟨2, ![65536, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S512x1024 : Shape := ⟨2, ![512, 1024]⟩
abbrev S512x1536 : Shape := ⟨2, ![512, 1536]⟩
abbrev S1536 : Shape := ⟨1, ![1536]⟩
abbrev S1x1536 : Shape := ⟨2, ![1, 1536]⟩
abbrev S1x1024 : Shape := ⟨2, ![1, 1024]⟩
abbrev S1x512 : Shape := ⟨2, ![1, 512]⟩
abbrev S512x1 : Shape := ⟨2, ![512, 1]⟩

abbrev nBuf : Space → Nat
  | .hbm => 27
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1024, .f32⟩
  | .hbm, ⟨9, _⟩ => ⟨S1024, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x512, .f32⟩
  | .hbm, ⟨14, _⟩ => ⟨S512x1536, .f32⟩
  | .hbm, ⟨15, _⟩ => ⟨S512x1536, .bf16⟩
  | .hbm, ⟨16, _⟩ => ⟨S512x1024, .f32⟩
  | .hbm, ⟨17, _⟩ => ⟨S512x512, .f32⟩
  | .hbm, ⟨18, _⟩ => ⟨S512x1536, .f32⟩
  | .hbm, ⟨19, _⟩ => ⟨S512x1536, .bf16⟩
  | .hbm, ⟨20, _⟩ => ⟨S1536, .f32⟩
  | .hbm, ⟨21, _⟩ => ⟨S1x1536, .f32⟩
  | .hbm, ⟨22, _⟩ => ⟨S1x1024, .f32⟩
  | .hbm, ⟨23, _⟩ => ⟨S1x1024, .f32⟩
  | .hbm, ⟨24, _⟩ => ⟨S1x512, .f32⟩
  | .hbm, ⟨25, _⟩ => ⟨S1x512, .f32⟩
  | .hbm, ⟨26, _⟩ => ⟨S65536x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S1x1024, .f32⟩
  | .local _ .vmem, ⟨8, _⟩ => ⟨S1x1024, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x512_S512x1024_1_0 : S1024x512.Transposes [1, 0] S512x1024
  transposes_S512x512_S512x512_1_0 : S512x512.Transposes [1, 0] S512x512
  concatenates_S512x1024_S512x512_S512x1536_d1 : Shape.Concatenates [S512x1024, S512x512] S512x1536 1
  bitsLt_bf16_f32 : FTy.bits .bf16 < FTy.bits .f32
  concatenates_S1024_S512_S1536_d0 : Shape.Concatenates [S1024, S512] S1536 0
  shapeCasts_S1536_S1x1536 : S1536.ShapeCasts S1x1536
  shapeCasts_S1024_S1x1024 : S1024.ShapeCasts S1x1024
  shapeCasts_S512_S1x512 : S512.ShapeCasts S1x512
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x1024 : S512x1536.Slices ![0, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  slices_S512x1536_o0_1024_S512x512 : S512x1536.Slices ![0, 1024] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  broadcasts_S512x1_S512x512 : S512x1.Broadcasts S512x512
  broadcasts_S1x512_S512x512 : S1x512.Broadcasts S512x512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S65536x512.size a
  hwx0_1 : ∀ i : grid0.Coords, EltTy.bits .f32 = 32 ∨ (Rect.block (s := S65536x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S65536x512.size a
  hwx0_9 : ∀ i : grid0.Coords, EltTy.bits .f32 = 32 ∨ (Rect.block (s := S65536x512) S512x512.size (cc0_transform_9 i) (hinb0_9 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S512x1024 : Shape := ⟨2, ![512, 1024]⟩
abbrev S65536x1024 : Shape := ⟨2, ![65536, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1x512 : Shape := ⟨2, ![1, 512]⟩

abbrev nBuf : Space → Nat
  | .hbm => 104
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1024, .f32⟩
  | .hbm, ⟨9, _⟩ => ⟨S1024, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S65536x1024, .f32⟩
  | .hbm, ⟨14, _⟩ => ⟨S1x1024, .f32⟩
  | .hbm, ⟨15, _⟩ => ⟨S65536x1024, .f32⟩
  | .hbm, ⟨16, _⟩ => ⟨S65536x1024, .f32⟩
  | .hbm, ⟨17, _⟩ => ⟨S512x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S1x1024, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S_, .f32⟩
  | .hbm, ⟨55, _⟩ => ⟨S65536x1024, .f32⟩
  | .hbm, ⟨56, _⟩ => ⟨S65536x1024, .f32⟩
  | .hbm, ⟨57, _⟩ => ⟨S65536x512, .f32⟩
  | .hbm, ⟨58, _⟩ => ⟨S65536x512, .f32⟩
  | .hbm, ⟨59, _⟩ => ⟨S512x512, .f32⟩
  | .hbm, ⟨60, _⟩ => ⟨S65536x512, .f32⟩
  | .hbm, ⟨61, _⟩ => ⟨S1x512, .f32⟩
  | .hbm, ⟨62, _⟩ => ⟨S65536x512, .f32⟩
  | .hbm, ⟨63, _⟩ => ⟨S65536x512, .f32⟩
  | .hbm, ⟨64, _⟩ => ⟨S512x512, .f32⟩
  | .hbm, ⟨65, _⟩ => ⟨S65536x512, .f32⟩
  | .hbm, ⟨66, _⟩ => ⟨S65536x512, .f32⟩
  | .hbm, ⟨67, _⟩ => ⟨S65536x512, .f32⟩
  | .hbm, ⟨68, _⟩ => ⟨S_, .f32⟩
  | .hbm, ⟨69, _⟩ => ⟨S65536, .f32⟩
  | .hbm, ⟨70, _⟩ => ⟨S65536x1, .f32⟩
  | .hbm, ⟨71, _⟩ => ⟨S_, .f32⟩
  | .hbm, ⟨72, _⟩ => ⟨S65536x1, .f32⟩
  | .hbm, ⟨73, _⟩ => ⟨S65536x1, .f32⟩
  | .hbm, ⟨74, _⟩ => ⟨S65536x512, .f32⟩
  | .hbm, ⟨75, _⟩ => ⟨S65536x512, .f32⟩
  | .hbm, ⟨76, _⟩ => ⟨S65536x512, .f32⟩
  | .hbm, ⟨77, _⟩ => ⟨S_, .f32⟩
  | .hbm, ⟨78, _⟩ => ⟨S65536, .f32⟩
  | .hbm, ⟨79, _⟩ => ⟨S65536x1, .f32⟩
  | .hbm, ⟨80, _⟩ => ⟨S_, .f32⟩
  | .hbm, ⟨81, _⟩ => ⟨S65536x1, .f32⟩
  | .hbm, ⟨82, _⟩ => ⟨S65536x1, .f32⟩
  | .hbm, ⟨83, _⟩ => ⟨S65536x512, .f32⟩
  | .hbm, ⟨84, _⟩ => ⟨S65536x512, .f32⟩
  | .hbm, ⟨85, _⟩ => ⟨S_, .f32⟩
  | .hbm, ⟨86, _⟩ => ⟨S65536x1, .f32⟩
  | .hbm, ⟨87, _⟩ => ⟨S65536x1, .f32⟩
  | .hbm, ⟨88, _⟩ => ⟨S65536x1, .f32⟩
  | .hbm, ⟨89, _⟩ => ⟨S65536x512, .f32⟩
  | .hbm, ⟨90, _⟩ => ⟨S65536x512, .f32⟩
  | .hbm, ⟨91, _⟩ => ⟨S1x512, .f32⟩
  | .hbm, ⟨92, _⟩ => ⟨S65536x512, .f32⟩
  | .hbm, ⟨93, _⟩ => ⟨S65536x512, .f32⟩
  | .hbm, ⟨94, _⟩ => ⟨S1x512, .f32⟩
  | .hbm, ⟨95, _⟩ => ⟨S65536x512, .f32⟩
  | .hbm, ⟨96, _⟩ => ⟨S65536x512, .f32⟩
  | .hbm, ⟨97, _⟩ => ⟨S65536x512, .f32⟩
  | .hbm, ⟨98, _⟩ => ⟨S_, .f32⟩
  | .hbm, ⟨99, _⟩ => ⟨S65536x512, .f32⟩
  | .hbm, ⟨100, _⟩ => ⟨S65536x512, .f32⟩
  | .hbm, ⟨101, _⟩ => ⟨S65536x512, .f32⟩
  | .hbm, ⟨102, _⟩ => ⟨S65536x512, .f32⟩
  | .hbm, ⟨103, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S_S65536x1024 : S_.BroadcastsInDim S65536x1024 (![] : Fin 0 → Fin S65536x1024.rank)
  slices_S65536x1024_S65536x512_0_0 : S65536x1024.Slices ![0, 0] S65536x512
  slices_S65536x1024_S65536x512_0_512 : S65536x1024.Slices ![0, 512] S65536x512
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  bcast_S65536x1_S65536x512_0_1 : S65536x1.BroadcastsInDim S65536x512 (![0, 1] : Fin 2 → Fin S65536x512.rank)
  bcast_S_S65536x512 : S_.BroadcastsInDim S65536x512 (![] : Fin 0 → Fin S65536x512.rank)
  dot_S65536x512_S512x1024_S65536x1024_1_0_0_1_n_n_wf : DotDims.WF S65536x512 S512x1024 S65536x1024 [1] [0] [0] [1] [] []
  dot_S65536x512_S512x512_S65536x512_1_0_0_1_n_n_wf : DotDims.WF S65536x512 S512x512 S65536x512 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«129963_j41712722378993_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibLayerNorm.lean ====
/-
  Layer normalisation of a row on the extended reals, and a kernel tile's layer normalisation read at an entry
  (every extent generic).

  `rowMean cnt a` is the row's sum divided by `cnt`; `lnorm cnt eps a g b c` is
  (a c − mean a) · rsqrt (mean ((a − mean a)²) + eps) · g c + b c, every operation the exact one.
  A kernel body that layer-normalises an [a, b] tile `v` forms the column of row means — the lane sum of each row,
  recast to [a, 1] and divided by the count —, subtracts it broadcast over the tile, forms the column of means of
  the squared centred tile in the same way, adds ε, takes the reciprocal square root, broadcasts that column, and
  multiplies the centred tile by it, by a [1, b] scale row and adds a [1, b] shift row, both broadcast down the rows
  (`meanCol`, `centred`, `normed`: mean, centring, second moment, reciprocal square root, scale, shift, in that order).
  Entry (p, c) of the result is `lnorm` of row `p` at column `c`: each column-valued step reads row `p`, each
  row-valued step reads column `c`.
  Also: a unit-stride slice of columns `o .. o + n` of an [a, N] tile reads column `o + c`; a vector recast to a
  one-row matrix reads the vector; `rsqrt`, `logistic`, `tanh` of a vector at an index.
-/
import proofs.«129963_j41712722378993_2_alg».proof.Proof.LibRowOps
import proofs.«129963_j41712722378993_2_alg».proof.Proof.LibDotRecord

noncomputable section

namespace LayerNorm

open Idealize.ShloMosaic Idealize.ShloMosaic.ValueIdx

variable {a b : ℕ}

/-- The mean of a row: its sum divided by the count. -/
def rowMean {n : ℕ} (cnt : EReal) (a : Fin n → EReal) : EReal := Ideal.div (∑ k, a k) cnt

/-- Layer normalisation of a row with scale `g` and shift `b`, at entry `c`. -/
def lnorm {n : ℕ} (cnt eps : EReal) (a g b : Fin n → EReal) (c : Fin n) : EReal :=
  (a c - rowMean cnt a) * Ideal.rsqrt (rowMean cnt (fun k => (a k - rowMean cnt a) * (a k - rowMean cnt a)) + eps) * g c + b c

/-- A vector's reciprocal square root, at an index. -/
theorem rsqrt_apply {s : Shape} (v : FVec Ideal s .f32) (i : s.Idx) : rsqrt v i = Ideal.rsqrt (v i) := rfl
/-- A vector's logistic, at an index. -/
theorem logistic_apply {s : Shape} (v : FVec Ideal s .f32) (i : s.Idx) : logistic v i = Ideal.logistic (v i) := rfl
/-- A vector's hyperbolic tangent, at an index. -/
theorem tanh_apply {s : Shape} (v : FVec Ideal s .f32) (i : s.Idx) : tanh v i = Ideal.tanh (v i) := rfl

/-- A vector recast to a one-row matrix reads, at (0, j), the vector at j. -/
theorem rowOf_apply {α : Type} {n : ℕ} (v : (⟨1, ![n]⟩ : Shape).Idx → α) (h : (⟨1, ![n]⟩ : Shape).ShapeCasts ⟨2, ![1, n]⟩)
    (u : Fin 1) (j : Fin n) : shapeCast ⟨2, ![1, n]⟩ v h (ix2 u j) = v (ix1 j) :=
  shapeCast_apply v h _ _ (by
    have hu : u.val = 0 := by omega
    rw [Shape.rowMajor_val_two, Shape.rowMajor_val_one]
    show j.val = u.val * n + j.val
    rw [hu, Nat.zero_mul, Nat.zero_add])

/-- Columns `o .. o + n` of an [a, N] tile, at (p, c): the tile at (p, o + c). -/
theorem sliceCols_apply {α : Type} {N n : ℕ} (o : ℕ) (v : (⟨2, ![a, N]⟩ : Shape).Idx → α)
    (h : (⟨2, ![a, N]⟩ : Shape).Slices ![0, o] ⟨2, ![a, n]⟩) (p : Fin a) (c : Fin n) (c' : Fin N) (hc : c'.val = o + c.val) :
    extractStridedSlice ⟨2, ![a, n]⟩ ![0, o] v h (ix2 p c) = v (ix2 p c') :=
  extractStridedSlice_apply ![0, o] v h (ix2 p c) (ix2 p c') fun ax => by
    match ax with
    | ⟨0, _⟩ => show p.val = 0 + p.val; omega
    | ⟨1, _⟩ => exact hc

/-- The column of row means of a tile: lane sums, recast to a column, divided by the count word. -/
def meanCol (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ v 0x00000000#32 hR hφ hacc) hC)
    (broadcast ⟨2, ![a, 1]⟩ (Scalar.ofBits .f32 wc : Ideal .f32))

/-- Row `p` of the mean column is the mean of row `p`. -/
theorem meanCol_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (p : Fin a) :
    meanCol v wc hR hφ hacc hC (ix2 p (0 : Fin 1)) = rowMean (Ideal.ofBits .f32 wc) (fun k => v (ix2 p k)) := by
  unfold meanCol rowMean
  rw [divf_apply, Gcn.Lib.shapeCast_a_a1_apply, Gcn.Lib.rowSum_apply]
  rfl

/-- The tile minus its row means. -/
def centred (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  subf v (broadcastTo ⟨2, ![a, b]⟩ (meanCol v wc hR hφ hacc hC) hB)

/-- Entry (p, c) of the centred tile: the entry minus the mean of row `p`. -/
theorem centred_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (p : Fin a) (c : Fin b) :
    centred v wc hR hφ hacc hC hB (ix2 p c) = v (ix2 p c) - rowMean (Ideal.ofBits .f32 wc) (fun k => v (ix2 p k)) := by
  unfold centred
  rw [subf_apply, Gcn.Lib.broadcastTo_a1_ab_apply, meanCol_apply]

/-- The layer-normalised tile with scale row `g` and shift row `bb`. -/
def normed (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) : FVec Ideal ⟨2, ![a, b]⟩ .f32 :=
  addf (mulf (mulf (centred v wc hR hφ hacc hC hB)
      (broadcastTo ⟨2, ![a, b]⟩ (rsqrt (addf
        (meanCol (mulf (centred v wc hR hφ hacc hC hB) (centred v wc hR hφ hacc hC hB)) wc hR hφ hacc hC)
        (broadcast ⟨2, ![a, 1]⟩ (Scalar.ofBits .f32 we : Ideal .f32)))) hB))
      (broadcastTo ⟨2, ![a, b]⟩ g hG))
    (broadcastTo ⟨2, ![a, b]⟩ bb hG)

/-- Entry (p, c) of the normalised tile is the layer norm of row `p` at column `c`. -/
theorem normed_apply (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) (p : Fin a) (c : Fin b) :
    normed v g bb wc we hR hφ hacc hC hB hG (ix2 p c)
      = lnorm (Ideal.ofBits .f32 wc) (Ideal.ofBits .f32 we) (fun k => v (ix2 p k))
          (fun k => g (ix2 (0 : Fin 1) k)) (fun k => bb (ix2 (0 : Fin 1) k)) c := by
  unfold normed lnorm
  rw [addf_apply, mulf_apply, mulf_apply, Gcn.Lib.broadcastTo_a1_ab_apply, DotRecord.broadcastTo_1b_ab_apply,
    DotRecord.broadcastTo_1b_ab_apply, rsqrt_apply, addf_apply, broadcast_apply, centred_apply, meanCol_apply]
  simp only [mulf_apply, centred_apply]
  rfl

end LayerNorm

end
-- ==== Proof.GruSpec.lean ====
/-
  The gated recurrent cell with layer normalisation, one row at a time, on the extended reals.

  For one batch row with input row `x` and state row `h` (512 entries each) the cell forms
    pre c  = (∑ k, x k · Wrz c k + brz c) + ∑ k, h k · Urz c k            (1024 gate pre-activations)
    s c    = logistic (layerNorm pre · g₁ + b₁) c                          (the gates; r = s on 0..511, z = s on 512..1023)
    cand j = (∑ k, x k · Wh j k + bh j) + r j · ∑ k, h k · Uh j k
    out j  = (1 − z j) · h j + z j · tanh (layerNorm cand · g₂ + b₂) j,
  where layerNorm a c = (a c − mean a) · rsqrt (mean ((a − mean a)²) + ε) and mean a = (∑ a) / count
  (`LayerNorm.lnorm`, `LayerNorm.rowMean`).
  Every operation is the exact one on the extended reals; the constants `1`, the two counts and `ε` are
  parameters, so the same float words on both sides are never evaluated.
  `result` is this row function applied to row `i 0` of the whole arrays, read at column `i 1`.
-/
import Idealize.ShloMosaic.PureOps.Ideal
import Idealize.ShloMosaic.Lib.ValueIdx
import proofs.«129963_j41712722378993_2_alg».proof.Proof.LibLayerNorm

noncomputable section

namespace Gru

open Idealize.ShloMosaic Idealize.ShloMosaic.ValueIdx LayerNorm

/-- Column `j` of the reset half of the 1024 gates. -/
def lo (j : Fin 512) : Fin 1024 := ⟨j.val, by have := j.isLt; omega⟩
/-- Column `j` of the update half of the 1024 gates. -/
def hi (j : Fin 512) : Fin 1024 := ⟨512 + j.val, by have := j.isLt; omega⟩

/-- The gates of a row from its pre-activations. -/
def gate (c1 eps : EReal) (pre g1 b1 : Fin 1024 → EReal) (c : Fin 1024) : EReal :=
  Ideal.logistic (lnorm c1 eps pre g1 b1 c)

/-- The candidate pre-activation of a row: the input part plus the reset gate times the recurrent part. -/
def cand (c1 eps : EReal) (pre g1 b1 : Fin 1024 → EReal) (lin rec : Fin 512 → EReal) (q : Fin 512) : EReal :=
  lin q + gate c1 eps pre g1 b1 (lo q) * rec q

/-- The new state of a row at column `j`. -/
def out (one c1 c2 eps : EReal) (pre g1 b1 : Fin 1024 → EReal) (lin rec h g2 b2 : Fin 512 → EReal) (j : Fin 512) : EReal :=
  (one - gate c1 eps pre g1 b1 (hi j)) * h j
    + gate c1 eps pre g1 b1 (hi j) * Ideal.tanh (lnorm c2 eps (cand c1 eps pre g1 b1 lin rec) g2 b2 j)

/-- The gate pre-activations of batch row `r`. -/
def preOf (x h : (⟨2, ![65536, 512]⟩ : Shape).Idx → EReal) (wrz : (⟨2, ![1024, 512]⟩ : Shape).Idx → EReal)
    (brz : (⟨1, ![1024]⟩ : Shape).Idx → EReal) (urz : (⟨2, ![1024, 512]⟩ : Shape).Idx → EReal) (r : Fin 65536) (c : Fin 1024) : EReal :=
  (∑ k : Fin 512, x (ix2 r k) * wrz (ix2 c k) + brz (ix1 c)) + ∑ k : Fin 512, h (ix2 r k) * urz (ix2 c k)

/-- The input part of the candidate of batch row `r`. -/
def linOf (x : (⟨2, ![65536, 512]⟩ : Shape).Idx → EReal) (wh : (⟨2, ![512, 512]⟩ : Shape).Idx → EReal)
    (bh : (⟨1, ![512]⟩ : Shape).Idx → EReal) (r : Fin 65536) (q : Fin 512) : EReal :=
  ∑ k : Fin 512, x (ix2 r k) * wh (ix2 q k) + bh (ix1 q)

/-- The recurrent part of the candidate of batch row `r`. -/
def recOf (h : (⟨2, ![65536, 512]⟩ : Shape).Idx → EReal) (uh : (⟨2, ![512, 512]⟩ : Shape).Idx → EReal)
    (r : Fin 65536) (q : Fin 512) : EReal :=
  ∑ k : Fin 512, h (ix2 r k) * uh (ix2 q k)

/-- The whole result array: the cell of row `i 0` at column `i 1`. -/
def result (x h : (⟨2, ![65536, 512]⟩ : Shape).Idx → EReal) (wrz : (⟨2, ![1024, 512]⟩ : Shape).Idx → EReal)
    (brz : (⟨1, ![1024]⟩ : Shape).Idx → EReal) (urz : (⟨2, ![1024, 512]⟩ : Shape).Idx → EReal)
    (wh : (⟨2, ![512, 512]⟩ : Shape).Idx → EReal) (bh : (⟨1, ![512]⟩ : Shape).Idx → EReal)
    (uh : (⟨2, ![512, 512]⟩ : Shape).Idx → EReal) (g1 b1 : (⟨1, ![1024]⟩ : Shape).Idx → EReal)
    (g2 b2 : (⟨1, ![512]⟩ : Shape).Idx → EReal) : (⟨2, ![65536, 512]⟩ : Shape).Idx → EReal := fun i =>
  out (Ideal.ofBits .f32 0x3F800000#32) (Ideal.ofBits .f32 0x44800000#32) (Ideal.ofBits .f32 0x44000000#32)
    (Ideal.ofBits .f32 0x3727C5AC#32)
    (preOf x h wrz brz urz (i 0)) (fun c => g1 (ix1 c)) (fun c => b1 (ix1 c))
    (linOf x wh bh (i 0)) (recOf h uh (i 0)) (fun j => h (ix2 (i 0) j)) (fun j => g2 (ix1 j)) (fun j => b2 (ix1 j)) (i 1)

/-- The f32 word of `1.0` denotes the real `1`. -/
theorem ofBits_one_f32 : Ideal.ofBits .f32 0x3F800000#32 = 1 := by
  simp [Ideal.ofBits, Ideal.ieee, -EReal.coe_mul]; norm_num

end Gru

end
-- ==== Proof.GruRef.lean ====
/-
  The reference, read one entry at a time: its result at row `r`, column `j` is the cell of GruSpec.lean applied to
  row `r` of the two activation arrays.

  The reference computes whole [65536, ·] arrays: the two gate products with the transposed weights plus the bias
  (the pre-activations), their row mean and centred second moment (each a sum over the row divided by the count),
  the normalised, scaled and shifted row, the logistic as 1 / (1 + exp (−·)), the two halves of the gates by
  slicing, the candidate with the reset gate applied to the recurrent product, its layer norm and tanh, and the
  convex combination with the old state. Each stage below reads one of these arrays at an explicit entry
  `(r, c)` from the stages before it; every broadcast reads its operand at the same row, every slice at the
  shifted column, and the transposed weight at `(k, c)` is the weight at `(c, k)`.
-/
import proofs.«129963_j41712722378993_2_alg».proof.Proof.Gen.ReferenceIdeal.Read
import proofs.«129963_j41712722378993_2_alg».proof.Proof.GruSpec

noncomputable section

namespace Gru.Ref

open Cert.ReferenceIdeal Cert.ReferenceIdeal.Read Idealize.ShloMosaic Idealize.ShloMosaic.ValueIdx LayerNorm Gru

/-- Two indices given by the same coordinates are equal. -/
macro "idx_eq" : tactic =>
  `(tactic| (funext a; first | (match a with | ⟨0, _⟩ => rfl | ⟨1, _⟩ => rfl) | (match a with | ⟨0, _⟩ => rfl)))

variable (x0 x1 : (⟨S65536x512, .f32⟩ : BufTy).Contents (Elt Ideal)) (x2 : (⟨S1024x512, .f32⟩ : BufTy).Contents (Elt Ideal))
  (x3 : (⟨S1024, .f32⟩ : BufTy).Contents (Elt Ideal)) (x4 : (⟨S1024x512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 x9 : (⟨S1024, .f32⟩ : BufTy).Contents (Elt Ideal))
  (x10 x11 : (⟨S512, .f32⟩ : BufTy).Contents (Elt Ideal))

/-- The zero word added to a sum is the sum. -/
theorem zero_word_add (s : EReal) : (FloatOps.ofBits (F := Ideal) .f32 0x00000000#32 : EReal) + s = s := by
  show Ideal.ofBits .f32 0x00000000#32 + s = s
  rw [Ideal.ofBits_zero_f32, zero_add]

/-- The gate pre-activations at `(r, c)`. -/
theorem pre_eq (r : Fin 65536) (c : Fin 1024) :
    val_main_v7 (F := Ideal) x0 x1 x2 x3 x4 (ix2 r c) = preOf x0 x1 x2 x3 x4 r c := by
  rw [val_main_v7_apply, val_main_v4_apply, val_main_v1_apply, val_main_v3_apply, val_main_v2_apply, val_main_v6_apply]
  simp only [val_main_v0_apply, val_main_v5_apply]
  have e1 : ∀ k, lidx_main_v1 (ix2 r c) k = ix2 r k := fun k => by idx_eq
  have e2 : ∀ k, idx_main_v0 (ridx_main_v1 (ix2 r c) k) = ix2 c k := fun k => by idx_eq
  have e3 : idx_main_v2 (idx_main_v3 (ix2 r c)) = ix1 c := by idx_eq
  have e4 : ∀ k, lidx_main_v6 (ix2 r c) k = ix2 r k := fun k => by idx_eq
  have e5 : ∀ k, idx_main_v5 (ridx_main_v6 (ix2 r c) k) = ix2 c k := fun k => by idx_eq
  simp only [e1, e2, e3, e4, e5]
  rfl

/-- The row mean of the pre-activations. -/
theorem mean1_eq (r : Fin 65536) :
    val_main_v11 (F := Ideal) x0 x1 x2 x3 x4 (ix2 r (0 : Fin 1)) = rowMean (Ideal.ofBits .f32 0x44800000#32) (preOf x0 x1 x2 x3 x4 r) := by
  rw [val_main_v11_apply, val_main_v9_apply, val_main_v8_apply, val_main_v10_apply, val_main_cst_0_apply, val_main_cst_apply]
  have e : ∀ k, idx_main_v8 (idx_main_v9 (ix2 r (0 : Fin 1))) k = ix2 r k := fun k => by idx_eq
  simp only [e, pre_eq]
  rw [zero_word_add]
  rfl

/-- The centred pre-activations (the copy that is squared). -/
theorem ctr1a_eq (r : Fin 65536) (c : Fin 1024) :
    val_main_v13 (F := Ideal) x0 x1 x2 x3 x4 (ix2 r c) = preOf x0 x1 x2 x3 x4 r c - (rowMean (Ideal.ofBits .f32 0x44800000#32) (preOf x0 x1 x2 x3 x4 r)) := by
  rw [val_main_v13_apply, val_main_v12_apply]
  have e : idx_main_v12 (ix2 r c) = ix2 r (0 : Fin 1) := by idx_eq
  rw [e, mean1_eq, pre_eq]
  rfl

/-- The centred pre-activations (the copy that is normalised). -/
theorem ctr1b_eq (r : Fin 65536) (c : Fin 1024) :
    val_main_v20 (F := Ideal) x0 x1 x2 x3 x4 (ix2 r c) = preOf x0 x1 x2 x3 x4 r c - (rowMean (Ideal.ofBits .f32 0x44800000#32) (preOf x0 x1 x2 x3 x4 r)) := by
  rw [val_main_v20_apply, val_main_v19_apply]
  have e : idx_main_v19 (ix2 r c) = ix2 r (0 : Fin 1) := by idx_eq
  rw [e, mean1_eq, pre_eq]
  rfl

/-- The row mean of the squared centred pre-activations. -/
theorem var1_eq (r : Fin 65536) :
    val_main_v18 (F := Ideal) x0 x1 x2 x3 x4 (ix2 r (0 : Fin 1))
      = rowMean (Ideal.ofBits .f32 0x44800000#32) (fun k => (preOf x0 x1 x2 x3 x4 r k - (rowMean (Ideal.ofBits .f32 0x44800000#32) (preOf x0 x1 x2 x3 x4 r))) * (preOf x0 x1 x2 x3 x4 r k - (rowMean (Ideal.ofBits .f32 0x44800000#32) (preOf x0 x1 x2 x3 x4 r)))) := by
  rw [val_main_v18_apply, val_main_v16_apply, val_main_v15_apply, val_main_v17_apply, val_main_cst_2_apply, val_main_cst_1_apply]
  have e : ∀ k, idx_main_v15 (idx_main_v16 (ix2 r (0 : Fin 1))) k = ix2 r k := fun k => by idx_eq
  simp only [e, val_main_v14_apply, ctr1a_eq]
  rw [zero_word_add]
  rfl

/-- The normalised, scaled and shifted pre-activations. -/
theorem norm1_eq (r : Fin 65536) (c : Fin 1024) :
    val_main_v31 (F := Ideal) x0 x1 x2 x3 x4 x8 x9 (ix2 r c) = lnorm (Ideal.ofBits .f32 0x44800000#32) (Ideal.ofBits .f32 0x3727C5AC#32) (preOf x0 x1 x2 x3 x4 r) (fun c => x8 (ix1 c)) (fun c => x9 (ix1 c)) c := by
  rw [val_main_v31_apply, val_main_v28_apply, val_main_v25_apply, val_main_v24_apply, val_main_v23_apply, val_main_v22_apply,
    val_main_v21_apply, val_main_cst_3_apply, val_main_v27_apply, val_main_v26_apply, val_main_v30_apply, val_main_v29_apply]
  have e24 : idx_main_v24 (ix2 r c) = ix2 r (0 : Fin 1) := by idx_eq
  have e27 : idx_main_v26 (idx_main_v27 (ix2 r c)) = ix1 c := by idx_eq
  have e30 : idx_main_v29 (idx_main_v30 (ix2 r c)) = ix1 c := by idx_eq
  rw [e24, e27, e30, ctr1b_eq, var1_eq]
  rfl

/-- The gates: the host's 1 / (1 + exp (−·)) is the logistic. -/
theorem gate_eq (r : Fin 65536) (c : Fin 1024) :
    val_main_v37 (F := Ideal) x0 x1 x2 x3 x4 x8 x9 (ix2 r c) = gate (Ideal.ofBits .f32 0x44800000#32) (Ideal.ofBits .f32 0x3727C5AC#32) (preOf x0 x1 x2 x3 x4 r) (fun c => x8 (ix1 c)) (fun c => x9 (ix1 c)) c := by
  rw [val_main_v37_apply, val_main_v36_apply, val_main_cst_5_apply, val_main_v35_apply, val_main_v34_apply, val_main_cst_4_apply,
    val_main_v33_apply, val_main_v32_apply, norm1_eq]
  show Ideal.div (Ideal.ofBits .f32 0x3F800000#32) ((Ideal.ofBits .f32 0x3F800000#32) + Ideal.exp (-(lnorm (Ideal.ofBits .f32 0x44800000#32) (Ideal.ofBits .f32 0x3727C5AC#32) (preOf x0 x1 x2 x3 x4 r) (fun c => x8 (ix1 c)) (fun c => x9 (ix1 c)) c))) = _
  rw [ofBits_one_f32]
  rfl

/-- The candidate pre-activations. -/
theorem cand_eq (r : Fin 65536) (q : Fin 512) :
    val_main_v48 (F := Ideal) x0 x1 x2 x3 x4 x5 x6 x7 x8 x9 (ix2 r q) = (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r)) q := by
  rw [val_main_v48_apply, val_main_v44_apply, val_main_v41_apply, val_main_v43_apply, val_main_v42_apply, val_main_v47_apply,
    val_main_v38_apply, val_main_v46_apply]
  simp only [val_main_v40_apply, val_main_v45_apply]
  have e1 : ∀ k, lidx_main_v41 (ix2 r q) k = ix2 r k := fun k => by idx_eq
  have e2 : ∀ k, idx_main_v40 (ridx_main_v41 (ix2 r q) k) = ix2 q k := fun k => by idx_eq
  have e3 : idx_main_v42 (idx_main_v43 (ix2 r q)) = ix1 q := by idx_eq
  have e4 : idx_main_v38 (ix2 r q) = ix2 r (lo q) := by idx_eq
  have e5 : ∀ k, lidx_main_v46 (ix2 r q) k = ix2 r k := fun k => by idx_eq
  have e6 : ∀ k, idx_main_v45 (ridx_main_v46 (ix2 r q) k) = ix2 q k := fun k => by idx_eq
  simp only [e1, e2, e3, e4, e5, e6, gate_eq]
  rfl

/-- The row mean of the candidate pre-activations. -/
theorem mean2_eq (r : Fin 65536) :
    val_main_v52 (F := Ideal) x0 x1 x2 x3 x4 x5 x6 x7 x8 x9 (ix2 r (0 : Fin 1)) = (rowMean (Ideal.ofBits .f32 0x44000000#32) (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r))) := by
  rw [val_main_v52_apply, val_main_v50_apply, val_main_v49_apply, val_main_v51_apply, val_main_cst_7_apply, val_main_cst_6_apply]
  have e : ∀ k, idx_main_v49 (idx_main_v50 (ix2 r (0 : Fin 1))) k = ix2 r k := fun k => by idx_eq
  simp only [e, cand_eq]
  rw [zero_word_add]
  rfl

/-- The centred candidate (the copy that is squared). -/
theorem ctr2a_eq (r : Fin 65536) (q : Fin 512) :
    val_main_v54 (F := Ideal) x0 x1 x2 x3 x4 x5 x6 x7 x8 x9 (ix2 r q) = (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r)) q - (rowMean (Ideal.ofBits .f32 0x44000000#32) (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r))) := by
  rw [val_main_v54_apply, val_main_v53_apply]
  have e : idx_main_v53 (ix2 r q) = ix2 r (0 : Fin 1) := by idx_eq
  rw [e, mean2_eq, cand_eq]
  rfl

/-- The centred candidate (the copy that is normalised). -/
theorem ctr2b_eq (r : Fin 65536) (q : Fin 512) :
    val_main_v61 (F := Ideal) x0 x1 x2 x3 x4 x5 x6 x7 x8 x9 (ix2 r q) = (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r)) q - (rowMean (Ideal.ofBits .f32 0x44000000#32) (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r))) := by
  rw [val_main_v61_apply, val_main_v60_apply]
  have e : idx_main_v60 (ix2 r q) = ix2 r (0 : Fin 1) := by idx_eq
  rw [e, mean2_eq, cand_eq]
  rfl

/-- The row mean of the squared centred candidate. -/
theorem var2_eq (r : Fin 65536) :
    val_main_v59 (F := Ideal) x0 x1 x2 x3 x4 x5 x6 x7 x8 x9 (ix2 r (0 : Fin 1))
      = rowMean (Ideal.ofBits .f32 0x44000000#32) (fun k => ((cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r)) k - (rowMean (Ideal.ofBits .f32 0x44000000#32) (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r)))) * ((cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r)) k - (rowMean (Ideal.ofBits .f32 0x44000000#32) (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r))))) := by
  rw [val_main_v59_apply, val_main_v57_apply, val_main_v56_apply, val_main_v58_apply, val_main_cst_9_apply, val_main_cst_8_apply]
  have e : ∀ k, idx_main_v56 (idx_main_v57 (ix2 r (0 : Fin 1))) k = ix2 r k := fun k => by idx_eq
  simp only [e, val_main_v55_apply, ctr2a_eq]
  rw [zero_word_add]
  rfl

/-- The normalised, scaled and shifted candidate. -/
theorem norm2_eq (r : Fin 65536) (q : Fin 512) :
    val_main_v72 (F := Ideal) x0 x1 x2 x3 x4 x5 x6 x7 x8 x9 x10 x11 (ix2 r q) = lnorm (Ideal.ofBits .f32 0x44000000#32) (Ideal.ofBits .f32 0x3727C5AC#32) (cand (Ideal.ofBits .f32 0x44800000#32) (Ideal.ofBits .f32 0x3727C5AC#32) (preOf x0 x1 x2 x3 x4 r) (fun c => x8 (ix1 c)) (fun c => x9 (ix1 c)) (linOf x0 x5 x6 r) (recOf x1 x7 r)) (fun j => x10 (ix1 j)) (fun j => x11 (ix1 j)) q := by
  rw [val_main_v72_apply, val_main_v69_apply, val_main_v66_apply, val_main_v65_apply, val_main_v64_apply, val_main_v63_apply,
    val_main_v62_apply, val_main_cst_10_apply, val_main_v68_apply, val_main_v67_apply, val_main_v71_apply, val_main_v70_apply]
  have e65 : idx_main_v65 (ix2 r q) = ix2 r (0 : Fin 1) := by idx_eq
  have e68 : idx_main_v67 (idx_main_v68 (ix2 r q)) = ix1 q := by idx_eq
  have e71 : idx_main_v70 (idx_main_v71 (ix2 r q)) = ix1 q := by idx_eq
  rw [e65, e68, e71, ctr2b_eq, var2_eq]
  rfl

/-- The reference's result array is the cell, row by row. -/
theorem result_eq :
    val_main_v78 (F := Ideal) x0 x1 x2 x3 x4 x5 x6 x7 x8 x9 x10 x11 = result x0 x1 x2 x3 x4 x5 x6 x7 x8 x9 x10 x11 := by
  funext i
  obtain ⟨r, j, rfl⟩ : ∃ (r : Fin 65536) (j : Fin 512), i = ix2 r j := ⟨i 0, i 1, eq_ix2 i⟩
  rw [val_main_v78_apply, val_main_v76_apply, val_main_v75_apply, val_main_v74_apply, val_main_cst_11_apply, val_main_v39_apply,
    val_main_v77_apply, val_main_v39_apply, val_main_v73_apply, norm2_eq]
  have e : idx_main_v39 (ix2 r j) = ix2 r (hi j) := by idx_eq
  rw [e, gate_eq]
  rfl

end Gru.Ref

end
-- ==== Proof.GruKernel.lean ====
/-
  The kernel body's value on one 512-row tile, read at an entry: the cell of GruSpec.lean applied to the tile's rows.

  The body multiplies the tile of inputs `x` and of states `h` by two fused [512, 1536] matrices `W`, `U` (gate
  columns 0..1023, candidate columns 1024..1535), adds the fused bias row to the first product, and splits the
  columns by slicing: the sum of the two gate parts is layer-normalised over its 1024 columns and put through the
  logistic; the candidate part of the first product plus the reset gate times the candidate part of the second is
  layer-normalised over its 512 columns and put through tanh; the result is (1 − z)·h + z·tanh(…).
  A format change is the identity on the extended reals, a product accumulated into zero is the sum over the 512
  contracted coordinates, a lane reduction is the row's sum. Entry (p, j) therefore depends on row `p` of `x`
  and `h` only, and is `Gru.out` of that row's pre-activations.
-/
import proofs.«129963_j41712722378993_2_alg».proof.Proof.Gen.KernelIdeal.Skeleton
import proofs.«129963_j41712722378993_2_alg».proof.Proof.LibLayerNorm
import proofs.«129963_j41712722378993_2_alg».proof.Proof.GruSpec

noncomputable section

namespace Gru.Kernel

open Cert.KernelIdeal Cert.KernelIdeal.Gen Idealize.ShloMosaic Idealize.ShloMosaic.ValueIdx LayerNorm Gru

/-- Gate column `c` of a fused [·, 1536] matrix. -/
def gcol (c : Fin 1024) : Fin 1536 := ⟨c.val, by have := c.isLt; omega⟩
/-- Candidate column `q` of a fused [·, 1536] matrix: after the 1024 gate columns. -/
def ccol (q : Fin 512) : Fin 1536 := ⟨1024 + q.val, by have := q.isLt; omega⟩

variable (x h : Vec Ideal S512x512 .f32) (W U : Vec Ideal S512x1536 .bf16) (bias : Vec Ideal S1x1536 .f32)
  (g1 b1 : Vec Ideal S1x1024 .f32) (g2 b2 : Vec Ideal S1x512 .f32)

/-- The input product plus the bias row, at (p, j). -/
theorem xwb_apply (p : Fin 512) (j : Fin 1536) :
    k0_pay3 x W bias (ix2 p j) = (∑ k : Fin 512, x (ix2 p k) * W (ix2 k j)) + bias (ix2 (0 : Fin 1) j) := by
  show (matmul (F := Ideal) dot_S512x512_S512x1536_S512x1536_1_0_0_1_n_n none (truncf .bf16 x bitsLt_bf16_f32)
        (shapeCast S512x1536 W shapeCasts_S512x1536_S512x1536) (constant S512x1536 .f32 0x00000000#32)) (ix2 p j)
      + (broadcastTo S512x1536 (shapeCast S1x1536 bias shapeCasts_S1x1536_S1x1536) broadcasts_S1x1536_S512x1536) (ix2 p j) = _
  rw [shapeCast_self, shapeCast_self, DotRecord.broadcastTo_1b_ab_apply]
  exact congrArg (· + bias (ix2 (0 : Fin 1) j))
    (DotRecord.matmul_zero_apply _ rfl rfl rfl rfl rfl rfl (truncf .bf16 x bitsLt_bf16_f32) W none p j)

/-- The state product, at (p, j). -/
theorem hu_apply (p : Fin 512) (j : Fin 1536) :
    k0_pay2 h U (ix2 p j) = ∑ k : Fin 512, h (ix2 p k) * U (ix2 k j) := by
  show (matmul (F := Ideal) dot_S512x512_S512x1536_S512x1536_1_0_0_1_n_n none (truncf .bf16 h bitsLt_bf16_f32)
        (shapeCast S512x1536 U shapeCasts_S512x1536_S512x1536) (constant S512x1536 .f32 0x00000000#32)) (ix2 p j) = _
  rw [shapeCast_self]
  exact DotRecord.matmul_zero_apply _ rfl rfl rfl rfl rfl rfl (truncf .bf16 h bitsLt_bf16_f32) U none p j

/-- The gate pre-activations of the tile's row `p`. -/
def preRow (p : Fin 512) (c : Fin 1024) : EReal :=
  (∑ k : Fin 512, x (ix2 p k) * W (ix2 k (gcol c)) + bias (ix2 (0 : Fin 1) (gcol c))) + ∑ k : Fin 512, h (ix2 p k) * U (ix2 k (gcol c))

/-- The input part of the candidate of the tile's row `p`. -/
def linRow (p : Fin 512) (q : Fin 512) : EReal :=
  ∑ k : Fin 512, x (ix2 p k) * W (ix2 k (ccol q)) + bias (ix2 (0 : Fin 1) (ccol q))

/-- The recurrent part of the candidate of the tile's row `p`. -/
def recRow (p : Fin 512) (q : Fin 512) : EReal :=
  ∑ k : Fin 512, h (ix2 p k) * U (ix2 k (ccol q))

/-- The tile of gate pre-activations: the gate columns of the two products, added. -/
theorem pre_apply (p : Fin 512) (c : Fin 1024) :
    k0_pay4 x h W U bias (ix2 p c) = preRow x h W U bias p c := by
  show (extractStridedSlice S512x1024 ![0, 0] (k0_pay3 x W bias) slices_S512x1536_o0_0_S512x1024) (ix2 p c)
      + (extractStridedSlice S512x1024 ![0, 0] (k0_pay2 h U) slices_S512x1536_o0_0_S512x1024) (ix2 p c) = _
  rw [sliceCols_apply 0 (k0_pay3 x W bias) _ p c (gcol c) (by show c.val = 0 + c.val; omega),
    sliceCols_apply 0 (k0_pay2 h U) _ p c (gcol c) (by show c.val = 0 + c.val; omega), xwb_apply, hu_apply]
  rfl

/-- The tile of gates. -/
def gatesTile : FVec Ideal S512x1024 .f32 :=
  logistic (normed (k0_pay4 x h W U bias) (k0_pay5 g1) (k0_pay6 b1) 0x44800000#32 0x3727C5AC#32 reduces_S512x1024_S512 (.inl rfl) rfl
    shapeCasts_S512_S512x1 broadcasts_S512x1_S512x1024 broadcasts_S1x1024_S512x1024)

theorem gatesTile_apply (p : Fin 512) (c : Fin 1024) :
    gatesTile x h W U bias g1 b1 (ix2 p c)
      = gate (Ideal.ofBits .f32 0x44800000#32) (Ideal.ofBits .f32 0x3727C5AC#32) (preRow x h W U bias p) (fun c => g1 (ix2 (0 : Fin 1) c)) (fun c => b1 (ix2 (0 : Fin 1) c)) c := by
  have e5 : k0_pay5 g1 = g1 := shapeCast_self g1 shapeCasts_S1x1024_S1x1024
  have e6 : k0_pay6 b1 = b1 := shapeCast_self b1 shapeCasts_S1x1024_S1x1024
  refine congrArg Ideal.logistic ?_
  refine (normed_apply (k0_pay4 x h W U bias) (k0_pay5 g1) (k0_pay6 b1) _ _ _ _ _ _ _ _ p c).trans ?_
  rw [e5, e6]
  simp only [pre_apply]

/-- The tile of candidate pre-activations. -/
def candTile : FVec Ideal S512x512 .f32 :=
  addf (extractStridedSlice S512x512 ![0, 1024] (k0_pay3 x W bias) slices_S512x1536_o0_1024_S512x512)
    (mulf (extractStridedSlice S512x512 ![0, 0] (gatesTile x h W U bias g1 b1) slices_S512x1024_o0_0_S512x512)
      (extractStridedSlice S512x512 ![0, 1024] (k0_pay2 h U) slices_S512x1536_o0_1024_S512x512))

theorem candTile_apply (p : Fin 512) (q : Fin 512) :
    candTile x h W U bias g1 b1 (ix2 p q)
      = cand (Ideal.ofBits .f32 0x44800000#32) (Ideal.ofBits .f32 0x3727C5AC#32) (preRow x h W U bias p) (fun c => g1 (ix2 (0 : Fin 1) c)) (fun c => b1 (ix2 (0 : Fin 1) c))
          (linRow x W bias p) (recRow h U p) q := by
  unfold candTile cand
  rw [addf_apply, mulf_apply,
    sliceCols_apply 1024 (k0_pay3 x W bias) _ p q (ccol q) rfl,
    sliceCols_apply 0 (gatesTile x h W U bias g1 b1) _ p q (lo q) (by show q.val = 0 + q.val; omega),
    sliceCols_apply 1024 (k0_pay2 h U) _ p q (ccol q) rfl, xwb_apply, hu_apply, gatesTile_apply]
  rfl

/-- The tile of new states. -/
def outTile : FVec Ideal S512x512 .f32 :=
  addf (mulf (subf (broadcast S512x512 (Scalar.ofBits .f32 0x3F800000#32 : Ideal .f32))
        (extractStridedSlice S512x512 ![0, 512] (gatesTile x h W U bias g1 b1) slices_S512x1024_o0_512_S512x512)) h)
    (mulf (extractStridedSlice S512x512 ![0, 512] (gatesTile x h W U bias g1 b1) slices_S512x1024_o0_512_S512x512)
      (tanh (normed (candTile x h W U bias g1 b1) (shapeCast S1x512 g2 shapeCasts_S1x512_S1x512) (shapeCast S1x512 b2 shapeCasts_S1x512_S1x512)
        0x44000000#32 0x3727C5AC#32 reduces_S512x512_S512 (.inl rfl) rfl
        shapeCasts_S512_S512x1 broadcasts_S512x1_S512x512 broadcasts_S1x512_S512x512)))

/-- The body's stored value is that tile: the printed sequence of operations, regrouped. -/
theorem payload_eq :
    k0_pay1 h (k0_pay2 h U) (k0_pay3 x W bias) (k0_pay5 g1) (k0_pay6 b1) (k0_pay8 x h W U bias) (k0_pay9 x h W U bias) g2 b2
      = outTile x h W U bias g1 b1 g2 b2 := rfl

/-- Entry (p, j) of the stored tile is the cell's new state of row `p` at column `j`. -/
theorem outTile_apply (p : Fin 512) (j : Fin 512) :
    outTile x h W U bias g1 b1 g2 b2 (ix2 p j)
      = out (Ideal.ofBits .f32 0x3F800000#32) (Ideal.ofBits .f32 0x44800000#32) (Ideal.ofBits .f32 0x44000000#32) (Ideal.ofBits .f32 0x3727C5AC#32) (preRow x h W U bias p)
          (fun c => g1 (ix2 (0 : Fin 1) c)) (fun c => b1 (ix2 (0 : Fin 1) c)) (linRow x W bias p) (recRow h U p)
          (fun j => h (ix2 p j)) (fun j => g2 (ix2 (0 : Fin 1) j)) (fun j => b2 (ix2 (0 : Fin 1) j)) j := by
  have hz : extractStridedSlice S512x512 ![0, 512] (gatesTile x h W U bias g1 b1) slices_S512x1024_o0_512_S512x512 (ix2 p j)
      = gate (Ideal.ofBits .f32 0x44800000#32) (Ideal.ofBits .f32 0x3727C5AC#32) (preRow x h W U bias p) (fun c => g1 (ix2 (0 : Fin 1) c)) (fun c => b1 (ix2 (0 : Fin 1) c)) (hi j) :=
    (sliceCols_apply 512 (gatesTile x h W U bias g1 b1) _ p j (hi j) rfl).trans (gatesTile_apply x h W U bias g1 b1 p (hi j))
  have hn : normed (candTile x h W U bias g1 b1) (shapeCast S1x512 g2 shapeCasts_S1x512_S1x512) (shapeCast S1x512 b2 shapeCasts_S1x512_S1x512)
        0x44000000#32 0x3727C5AC#32 reduces_S512x512_S512 (.inl rfl) rfl
        shapeCasts_S512_S512x1 broadcasts_S512x1_S512x512 broadcasts_S1x512_S512x512 (ix2 p j)
      = lnorm (Ideal.ofBits .f32 0x44000000#32) (Ideal.ofBits .f32 0x3727C5AC#32)
          (cand (Ideal.ofBits .f32 0x44800000#32) (Ideal.ofBits .f32 0x3727C5AC#32) (preRow x h W U bias p) (fun c => g1 (ix2 (0 : Fin 1) c)) (fun c => b1 (ix2 (0 : Fin 1) c))
            (linRow x W bias p) (recRow h U p))
          (fun j => g2 (ix2 (0 : Fin 1) j)) (fun j => b2 (ix2 (0 : Fin 1) j)) j := by
    refine (normed_apply (candTile x h W U bias g1 b1) _ _ _ _ _ _ _ _ _ _ p j).trans ?_
    rw [shapeCast_self, shapeCast_self]
    simp only [candTile_apply]
  exact congrArg₂ (fun z n => (Ideal.ofBits .f32 0x3F800000#32 - z) * h (ix2 p j) + z * Ideal.tanh n) hz hn

end Gru.Kernel

end
-- ==== Proof.GruBlocks.lean ====
/-
  From the tiles to the whole array: the kernel's run ends with the result array holding the cell of every batch row.

  The grid has 128 points; point `t` stages rows 512·t .. 512·t + 511 of the inputs and of the states, the whole of
  each weight, bias, scale and shift array (one block, index 0), runs the body and writes its tile back to rows
  512·t .. of the result. The fused matrices the body multiplies by are built before the region: the transposed gate
  and candidate weights side by side, so entry (k, c) of a fused matrix is the gate weight at (c, k) for c < 1024
  and the candidate weight at (c − 1024, k) beyond; the fused bias is the two biases end to end, recast to a row;
  each scale and shift vector is recast to a row. So what point `t` writes back is block `t` of `Gru.result` of
  the argument arrays, the 128 blocks cover the result array, and the frame run's final contents are `Gru.result`.
-/
import proofs.«129963_j41712722378993_2_alg».proof.Proof.Gen.KernelIdeal.Frame
import proofs.«129963_j41712722378993_2_alg».proof.Proof.GruKernel
import Idealize.ShloMosaic.Lib.StableHlo.Run
import Idealize.ShloMosaic.Lib.Pipeline.Value

set_option maxRecDepth 16384

noncomputable section

namespace Gru.Blocks

open Cert.KernelIdeal Cert.KernelIdeal.Gen Idealize.ShloMosaic Idealize.ShloMosaic.TcCoe Idealize.SL.Sem
open Idealize.ShloMosaic.ValueIdx LayerNorm Gru Gru.Kernel
open Idealize.ShloMosaic.Pipeline (Dat)

variable (m : (ℓ : Loc nD τ sig) → Buf (Elt Ideal) ℓ) (ρ : Dev nD → PrngReg)

/-! ## The fused arrays, read as the original ones -/

/-- Gate column `g` of the fused matrix at row `k` is the gate weight at (g, k). -/
theorem fused_gate (A : S1024x512.Idx → EReal) (B : S512x512.Idx → EReal) (k : Fin 512) (g : Fin 1024) :
    concatenate S512x1536 1 [⟨S512x1024, transpose S512x1024 [1, 0] A transposes_S1024x512_S512x1024_1_0⟩,
        ⟨S512x512, transpose S512x512 [1, 0] B transposes_S512x512_S512x512_1_0⟩]
      concatenates_S512x1024_S512x512_S512x1536_d1 (ix2 k (gcol g)) = A (ix2 g k) :=
  (concatenate_pair_apply_left (t := S512x1536) (s₁ := S512x1024) (s₂ := S512x512) (1 : Fin 2) _ _ concatenates_S512x1024_S512x512_S512x1536_d1 (ix2 k (gcol g)) rfl (ix2 k g)
    (fun b => by match b with | ⟨0, _⟩ => rfl | ⟨1, _⟩ => rfl)).trans
  (transpose_apply [1, 0] A transposes_S1024x512_S512x1024_1_0 (ix2 k g) (ix2 g k)
    (fun b => by match b with | ⟨0, _⟩ => rfl | ⟨1, _⟩ => rfl))

/-- Candidate column `q` of the fused matrix at row `k` is the candidate weight at (q, k). -/
theorem fused_cand (A : S1024x512.Idx → EReal) (B : S512x512.Idx → EReal) (k q : Fin 512) :
    concatenate S512x1536 1 [⟨S512x1024, transpose S512x1024 [1, 0] A transposes_S1024x512_S512x1024_1_0⟩,
        ⟨S512x512, transpose S512x512 [1, 0] B transposes_S512x512_S512x512_1_0⟩]
      concatenates_S512x1024_S512x512_S512x1536_d1 (ix2 k (ccol q)) = B (ix2 q k) :=
  (concatenate_pair_apply_right (t := S512x1536) (s₁ := S512x1024) (s₂ := S512x512) (1 : Fin 2) _ _ concatenates_S512x1024_S512x512_S512x1536_d1 (ix2 k (ccol q)) rfl rfl (ix2 k q)
    (fun b hb => by match b with | ⟨0, _⟩ => rfl | ⟨1, _⟩ => exact (hb (Fin.ext rfl)).elim)
    (by show q.val + 1024 = 1024 + q.val; omega)).trans
  (transpose_apply [1, 0] B transposes_S512x512_S512x512_1_0 (ix2 k q) (ix2 q k)
    (fun b => by match b with | ⟨0, _⟩ => rfl | ⟨1, _⟩ => rfl))

/-- Gate column `g` of the fused bias row is the gate bias at g. -/
theorem fusedBias_gate (a3 : S1024.Idx → EReal) (a6 : S512.Idx → EReal) (u : Fin 1) (g : Fin 1024) :
    shapeCast S1x1536 (concatenate S1536 0 [⟨S1024, a3⟩, ⟨S512, a6⟩] concatenates_S1024_S512_S1536_d0) shapeCasts_S1536_S1x1536
      (ix2 u (gcol g)) = a3 (ix1 g) :=
  (rowOf_apply _ shapeCasts_S1536_S1x1536 u (gcol g)).trans
  (concatenate_pair_apply_left (t := S1536) (s₁ := S1024) (s₂ := S512) (0 : Fin 1) _ _ concatenates_S1024_S512_S1536_d0 (ix1 (gcol g)) rfl (ix1 g)
    (fun b => by match b with | ⟨0, _⟩ => rfl))

/-- Candidate column `q` of the fused bias row is the candidate bias at q. -/
theorem fusedBias_cand (a3 : S1024.Idx → EReal) (a6 : S512.Idx → EReal) (u : Fin 1) (q : Fin 512) :
    shapeCast S1x1536 (concatenate S1536 0 [⟨S1024, a3⟩, ⟨S512, a6⟩] concatenates_S1024_S512_S1536_d0) shapeCasts_S1536_S1x1536
      (ix2 u (ccol q)) = a6 (ix1 q) :=
  (rowOf_apply _ shapeCasts_S1536_S1x1536 u (ccol q)).trans
  (concatenate_pair_apply_right (t := S1536) (s₁ := S1024) (s₂ := S512) (0 : Fin 1) _ _ concatenates_S1024_S512_S1536_d0 (ix1 (ccol q)) rfl rfl (ix1 q)
    (fun b hb => by match b with | ⟨0, _⟩ => exact (hb (Fin.ext rfl)).elim)
    (by show q.val + 1024 = 1024 + q.val; omega))

/-! ## What the region finds in the arrays the host wrote -/

theorem V_wmat (c : Dev nD) : (V m c main_v3 : S512x1536.Idx → EReal)
    = truncf (F := Ideal) .bf16 (concatenate S512x1536 1
        [⟨S512x1024, transpose S512x1024 [1, 0] ((m ((c : Thread nD τ).loc main_arg2)) : S1024x512.Idx → EReal) transposes_S1024x512_S512x1024_1_0⟩,
         ⟨S512x512, transpose S512x512 [1, 0] ((m ((c : Thread nD τ).loc main_arg5)) : S512x512.Idx → EReal) transposes_S512x512_S512x512_1_0⟩]
        concatenates_S512x1024_S512x512_S512x1536_d1) bitsLt_bf16_f32 := by
  dsimp only [V, hostOps0]; after_results <;> rfl

theorem V_umat (c : Dev nD) : (V m c main_v7 : S512x1536.Idx → EReal)
    = truncf (F := Ideal) .bf16 (concatenate S512x1536 1
        [⟨S512x1024, transpose S512x1024 [1, 0] ((m ((c : Thread nD τ).loc main_arg4)) : S1024x512.Idx → EReal) transposes_S1024x512_S512x1024_1_0⟩,
         ⟨S512x512, transpose S512x512 [1, 0] ((m ((c : Thread nD τ).loc main_arg7)) : S512x512.Idx → EReal) transposes_S512x512_S512x512_1_0⟩]
        concatenates_S512x1024_S512x512_S512x1536_d1) bitsLt_bf16_f32 := by
  dsimp only [V, hostOps0]; after_results <;> rfl

theorem V_brow (c : Dev nD) : (V m c main_v9 : S1x1536.Idx → EReal)
    = shapeCast S1x1536 (concatenate S1536 0 [⟨S1024, ((m ((c : Thread nD τ).loc main_arg3)) : S1024.Idx → EReal)⟩, ⟨S512, ((m ((c : Thread nD τ).loc main_arg6)) : S512.Idx → EReal)⟩]
        concatenates_S1024_S512_S1536_d0) shapeCasts_S1536_S1x1536 := by
  dsimp only [V, hostOps0]; after_results <;> rfl

theorem V_g1row (c : Dev nD) : (V m c main_v10 : S1x1024.Idx → EReal)
    = shapeCast S1x1024 ((m ((c : Thread nD τ).loc main_arg8)) : S1024.Idx → EReal) shapeCasts_S1024_S1x1024 := by
  dsimp only [V, hostOps0]; after_results <;> rfl

theorem V_b1row (c : Dev nD) : (V m c main_v11 : S1x1024.Idx → EReal)
    = shapeCast S1x1024 ((m ((c : Thread nD τ).loc main_arg9)) : S1024.Idx → EReal) shapeCasts_S1024_S1x1024 := by
  dsimp only [V, hostOps0]; after_results <;> rfl

theorem V_g2row (c : Dev nD) : (V m c main_v12 : S1x512.Idx → EReal)
    = shapeCast S1x512 ((m ((c : Thread nD τ).loc main_arg10)) : S512.Idx → EReal) shapeCasts_S512_S1x512 := by
  dsimp only [V, hostOps0]; after_results <;> rfl

theorem V_b2row (c : Dev nD) : (V m c main_v13 : S1x512.Idx → EReal)
    = shapeCast S1x512 ((m ((c : Thread nD τ).loc main_arg11)) : S512.Idx → EReal) shapeCasts_S512_S1x512 := by
  dsimp only [V, hostOps0]; after_results <;> rfl

/-! ## The windows' blocks -/

/-- The printed index maps, decided over the 128 grid points: the two activation windows and the result window sit
    at block (t, 0), every other window at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_9.index t (0 : Fin 2) = t.val
    ∧ win0_9.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Row `p` of the tile at point `t`, as a row of the whole batch. -/
def row (t : Fin cfg0.N) (p : Fin 512) : Fin 65536 :=
  ⟨t.val * 512 + p.val, by have hN : cfg0.N = 128 := N_0; have := t.isLt; have := p.isLt; omega⟩

/-- Window 0 moves with the grid: row `p` of its block at point `t` is row `512·t + p` of the array. -/
theorem x_blk (c : Dev nD) (t : Fin cfg0.N) (p k : Fin 512) :
    iblk m c 0 t (ix2 p k) = (m ((c : Thread nD τ).loc main_arg0)) (ix2 (row t p) k) := by
  show V m c main_arg0 (((cfg0.win 0).blk t).view.emb (ix2 p k)) = _
  have he : ((cfg0.win 0).blk t).view.emb (ix2 p k) = ix2 (row t p) k := by
    obtain ⟨f0, f1, f2, f3, f4, f5, f6, f7, f8, f9, f10, f11, f12, f13, f14, f15, f16, f17, f18, f19⟩ := idx_facts t
    funext a; apply Fin.ext
    match a with
    | ⟨0, _⟩ => show win0_0.index t (0 : Fin 2) * 512 + 1 * p.val = t.val * 512 + p.val; omega
    | ⟨1, _⟩ => show win0_0.index t (1 : Fin 2) * 512 + 1 * k.val = k.val; omega
  rw [he, V_main_arg0]

/-- Window 1 moves with the grid: row `p` of its block at point `t` is row `512·t + p` of the array. -/
theorem h_blk (c : Dev nD) (t : Fin cfg0.N) (p k : Fin 512) :
    iblk m c 1 t (ix2 p k) = (m ((c : Thread nD τ).loc main_arg1)) (ix2 (row t p) k) := by
  show V m c main_arg1 (((cfg0.win 1).blk t).view.emb (ix2 p k)) = _
  have he : ((cfg0.win 1).blk t).view.emb (ix2 p k) = ix2 (row t p) k := by
    obtain ⟨f0, f1, f2, f3, f4, f5, f6, f7, f8, f9, f10, f11, f12, f13, f14, f15, f16, f17, f18, f19⟩ := idx_facts t
    funext a; apply Fin.ext
    match a with
    | ⟨0, _⟩ => show win0_1.index t (0 : Fin 2) * 512 + 1 * p.val = t.val * 512 + p.val; omega
    | ⟨1, _⟩ => show win0_1.index t (1 : Fin 2) * 512 + 1 * k.val = k.val; omega
  rw [he, V_main_arg1]

/-- Window 2 has one block, the whole array: its block at any point reads the array at the same index. -/
theorem wmat_blk (c : Dev nD) (t : Fin cfg0.N) (u : Fin 512) (j : Fin 1536) :
    iblk m c 2 t (ix2 u j) = V m c main_v3 (ix2 u j) := by
  show V m c main_v3 (((cfg0.win 2).blk t).view.emb (ix2 u j)) = _
  have he : ((cfg0.win 2).blk t).view.emb (ix2 u j) = ix2 u j := by
    obtain ⟨f0, f1, f2, f3, f4, f5, f6, f7, f8, f9, f10, f11, f12, f13, f14, f15, f16, f17, f18, f19⟩ := idx_facts t
    funext a; apply Fin.ext
    match a with
    | ⟨0, _⟩ => show win0_2.index t (0 : Fin 2) * 512 + 1 * u.val = u.val; omega
    | ⟨1, _⟩ => show win0_2.index t (1 : Fin 2) * 1536 + 1 * j.val = j.val; omega
  rw [he]

/-- Window 3 has one block, the whole array: its block at any point reads the array at the same index. -/
theorem umat_blk (c : Dev nD) (t : Fin cfg0.N) (u : Fin 512) (j : Fin 1536) :
    iblk m c 3 t (ix2 u j) = V m c main_v7 (ix2 u j) := by
  show V m c main_v7 (((cfg0.win 3).blk t).view.emb (ix2 u j)) = _
  have he : ((cfg0.win 3).blk t).view.emb (ix2 u j) = ix2 u j := by
    obtain ⟨f0, f1, f2, f3, f4, f5, f6, f7, f8, f9, f10, f11, f12, f13, f14, f15, f16, f17, f18, f19⟩ := idx_facts t
    funext a; apply Fin.ext
    match a with
    | ⟨0, _⟩ => show win0_3.index t (0 : Fin 2) * 512 + 1 * u.val = u.val; omega
    | ⟨1, _⟩ => show win0_3.index t (1 : Fin 2) * 1536 + 1 * j.val = j.val; omega
  rw [he]

/-- Window 4 has one block, the whole array: its block at any point reads the array at the same index. -/
theorem brow_blk (c : Dev nD) (t : Fin cfg0.N) (u : Fin 1) (j : Fin 1536) :
    iblk m c 4 t (ix2 u j) = V m c main_v9 (ix2 u j) := by
  show V m c main_v9 (((cfg0.win 4).blk t).view.emb (ix2 u j)) = _
  have he : ((cfg0.win 4).blk t).view.emb (ix2 u j) = ix2 u j := by
    obtain ⟨f0, f1, f2, f3, f4, f5, f6, f7, f8, f9, f10, f11, f12, f13, f14, f15, f16, f17, f18, f19⟩ := idx_facts t
    funext a; apply Fin.ext
    match a with
    | ⟨0, _⟩ => show win0_4.index t (0 : Fin 2) * 1 + 1 * u.val = u.val; omega
    | ⟨1, _⟩ => show win0_4.index t (1 : Fin 2) * 1536 + 1 * j.val = j.val; omega
  rw [he]

/-- Window 5 has one block, the whole array: its block at any point reads the array at the same index. -/
theorem g1row_blk (c : Dev nD) (t : Fin cfg0.N) (u : Fin 1) (j : Fin 1024) :
    iblk m c 5 t (ix2 u j) = V m c main_v10 (ix2 u j) := by
  show V m c main_v10 (((cfg0.win 5).blk t).view.emb (ix2 u j)) = _
  have he : ((cfg0.win 5).blk t).view.emb (ix2 u j) = ix2 u j := by
    obtain ⟨f0, f1, f2, f3, f4, f5, f6, f7, f8, f9, f10, f11, f12, f13, f14, f15, f16, f17, f18, f19⟩ := idx_facts t
    funext a; apply Fin.ext
    match a with
    | ⟨0, _⟩ => show win0_5.index t (0 : Fin 2) * 1 + 1 * u.val = u.val; omega
    | ⟨1, _⟩ => show win0_5.index t (1 : Fin 2) * 1024 + 1 * j.val = j.val; omega
  rw [he]

/-- Window 6 has one block, the whole array: its block at any point reads the array at the same index. -/
theorem b1row_blk (c : Dev nD) (t : Fin cfg0.N) (u : Fin 1) (j : Fin 1024) :
    iblk m c 6 t (ix2 u j) = V m c main_v11 (ix2 u j) := by
  show V m c main_v11 (((cfg0.win 6).blk t).view.emb (ix2 u j)) = _
  have he : ((cfg0.win 6).blk t).view.emb (ix2 u j) = ix2 u j := by
    obtain ⟨f0, f1, f2, f3, f4, f5, f6, f7, f8, f9, f10, f11, f12, f13, f14, f15, f16, f17, f18, f19⟩ := idx_facts t
    funext a; apply Fin.ext
    match a with
    | ⟨0, _⟩ => show win0_6.index t (0 : Fin 2) * 1 + 1 * u.val = u.val; omega
    | ⟨1, _⟩ => show win0_6.index t (1 : Fin 2) * 1024 + 1 * j.val = j.val; omega
  rw [he]

/-- Window 7 has one block, the whole array: its block at any point reads the array at the same index. -/
theorem g2row_blk (c : Dev nD) (t : Fin cfg0.N) (u : Fin 1) (j : Fin 512) :
    iblk m c 7 t (ix2 u j) = V m c main_v12 (ix2 u j) := by
  show V m c main_v12 (((cfg0.win 7).blk t).view.emb (ix2 u j)) = _
  have he : ((cfg0.win 7).blk t).view.emb (ix2 u j) = ix2 u j := by
    obtain ⟨f0, f1, f2, f3, f4, f5, f6, f7, f8, f9, f10, f11, f12, f13, f14, f15, f16, f17, f18, f19⟩ := idx_facts t
    funext a; apply Fin.ext
    match a with
    | ⟨0, _⟩ => show win0_7.index t (0 : Fin 2) * 1 + 1 * u.val = u.val; omega
    | ⟨1, _⟩ => show win0_7.index t (1 : Fin 2) * 512 + 1 * j.val = j.val; omega
  rw [he]

/-- Window 8 has one block, the whole array: its block at any point reads the array at the same index. -/
theorem b2row_blk (c : Dev nD) (t : Fin cfg0.N) (u : Fin 1) (j : Fin 512) :
    iblk m c 8 t (ix2 u j) = V m c main_v13 (ix2 u j) := by
  show V m c main_v13 (((cfg0.win 8).blk t).view.emb (ix2 u j)) = _
  have he : ((cfg0.win 8).blk t).view.emb (ix2 u j) = ix2 u j := by
    obtain ⟨f0, f1, f2, f3, f4, f5, f6, f7, f8, f9, f10, f11, f12, f13, f14, f15, f16, f17, f18, f19⟩ := idx_facts t
    funext a; apply Fin.ext
    match a with
    | ⟨0, _⟩ => show win0_8.index t (0 : Fin 2) * 1 + 1 * u.val = u.val; omega
    | ⟨1, _⟩ => show win0_8.index t (1 : Fin 2) * 512 + 1 * j.val = j.val; omega
  rw [he]

/-! ## What a point writes back -/

theorem hz : (![0, 0] : Fin 2 → Nat) = fun _ => 0 := funext fun a => by fin_cases a <;> rfl

/-- The result array the kernel's run ends with: the cell of every batch row. -/
def kernelResult (c : Dev nD) : Buf (Elt Ideal) ((c : Thread nD τ).loc main_v14) :=
  Gru.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- WHAT POINT `t` WRITES BACK is block `t` of the cell applied row by row to the argument arrays. -/
theorem flushed_eq (c : Dev nD) (t : Fin cfg0.N) :
    (dats m 0 c).flushed 9 t = ((cfg0.win 9).blk t).view.read (Elt Ideal) (kernelResult m c) := by
  show (cfg0.win 9).cut (grid0.coords t) ((dats m 0 c).after 9 t) = _
  rw [after0_9]
  unfold out0_9
  rw [View.canon_unit_zero hz]
  simp only [View.ld_unit_zero (S := S512x512) hz, View.ld_unit_zero (S := S512x1536) hz, View.ld_unit_zero (S := S1x1536) hz,
    View.ld_unit_zero (S := S1x1024) hz, View.ld_unit_zero (S := S1x512) hz]
  refine funext fun (y : S512x512.Idx) => ?_
  obtain ⟨p, j, rfl⟩ : ∃ (p : Fin 512) (j : Fin 512), y = ix2 p j := ⟨y 0, y 1, eq_ix2 y⟩
  refine (congrFun (payload_eq (iblk m c 0 t) (iblk m c 1 t) (iblk m c 2 t) (iblk m c 3 t) (iblk m c 4 t) (iblk m c 5 t) (iblk m c 6 t) (iblk m c 7 t) (iblk m c 8 t)) (ix2 p j)).trans ?_
  refine (outTile_apply (iblk m c 0 t) (iblk m c 1 t) (iblk m c 2 t) (iblk m c 3 t) (iblk m c 4 t) (iblk m c 5 t) (iblk m c 6 t) (iblk m c 7 t) (iblk m c 8 t) p j).trans ?_
  show _ = kernelResult m c (((cfg0.win 9).blk t).view.emb (ix2 p j))
  have he : ((cfg0.win 9).blk t).view.emb (ix2 p j) = ix2 (row t p) j := by
    obtain ⟨f0, f1, f2, f3, f4, f5, f6, f7, f8, f9, f10, f11, f12, f13, f14, f15, f16, f17, f18, f19⟩ := idx_facts t
    funext a; apply Fin.ext
    match a with
    | ⟨0, _⟩ => show win0_9.index t (0 : Fin 2) * 512 + 1 * p.val = t.val * 512 + p.val; omega
    | ⟨1, _⟩ => show win0_9.index t (1 : Fin 2) * 512 + 1 * j.val = j.val; omega
  rw [he]
  have wg : ∀ (k : Fin 512) (g : Fin 1024), iblk m c 2 t (ix2 k (gcol g)) = (m ((c : Thread nD τ).loc main_arg2)) (ix2 g k) := fun k g =>
    (wmat_blk m c t k (gcol g)).trans ((congrFun (V_wmat m c) _).trans (fused_gate _ _ k g))
  have wq : ∀ (k q : Fin 512), iblk m c 2 t (ix2 k (ccol q)) = (m ((c : Thread nD τ).loc main_arg5)) (ix2 q k) := fun k q =>
    (wmat_blk m c t k (ccol q)).trans ((congrFun (V_wmat m c) _).trans (fused_cand _ _ k q))
  have ug : ∀ (k : Fin 512) (g : Fin 1024), iblk m c 3 t (ix2 k (gcol g)) = (m ((c : Thread nD τ).loc main_arg4)) (ix2 g k) := fun k g =>
    (umat_blk m c t k (gcol g)).trans ((congrFun (V_umat m c) _).trans (fused_gate _ _ k g))
  have uq : ∀ (k q : Fin 512), iblk m c 3 t (ix2 k (ccol q)) = (m ((c : Thread nD τ).loc main_arg7)) (ix2 q k) := fun k q =>
    (umat_blk m c t k (ccol q)).trans ((congrFun (V_umat m c) _).trans (fused_cand _ _ k q))
  have bg : ∀ (g : Fin 1024), iblk m c 4 t (ix2 (0 : Fin 1) (gcol g)) = (m ((c : Thread nD τ).loc main_arg3)) (ix1 g) := fun g =>
    (brow_blk m c t 0 (gcol g)).trans ((congrFun (V_brow m c) _).trans (fusedBias_gate _ _ 0 g))
  have bq : ∀ (q : Fin 512), iblk m c 4 t (ix2 (0 : Fin 1) (ccol q)) = (m ((c : Thread nD τ).loc main_arg6)) (ix1 q) := fun q =>
    (brow_blk m c t 0 (ccol q)).trans ((congrFun (V_brow m c) _).trans (fusedBias_cand _ _ 0 q))
  have hg1 : (fun g : Fin 1024 => iblk m c 5 t (ix2 (0 : Fin 1) g)) = fun g => (m ((c : Thread nD τ).loc main_arg8)) (ix1 g) := funext fun g =>
    (g1row_blk m c t 0 g).trans ((congrFun (V_g1row m c) _).trans (rowOf_apply _ _ 0 g))
  have hb1 : (fun g : Fin 1024 => iblk m c 6 t (ix2 (0 : Fin 1) g)) = fun g => (m ((c : Thread nD τ).loc main_arg9)) (ix1 g) := funext fun g =>
    (b1row_blk m c t 0 g).trans ((congrFun (V_b1row m c) _).trans (rowOf_apply _ _ 0 g))
  have hg2 : (fun q : Fin 512 => iblk m c 7 t (ix2 (0 : Fin 1) q)) = fun q => (m ((c : Thread nD τ).loc main_arg10)) (ix1 q) := funext fun q =>
    (g2row_blk m c t 0 q).trans ((congrFun (V_g2row m c) _).trans (rowOf_apply _ _ 0 q))
  have hb2 : (fun q : Fin 512 => iblk m c 8 t (ix2 (0 : Fin 1) q)) = fun q => (m ((c : Thread nD τ).loc main_arg11)) (ix1 q) := funext fun q =>
    (b2row_blk m c t 0 q).trans ((congrFun (V_b2row m c) _).trans (rowOf_apply _ _ 0 q))
  have hh : (fun q : Fin 512 => iblk m c 1 t (ix2 p q)) = fun q => (m ((c : Thread nD τ).loc main_arg1)) (ix2 (row t p) q) := funext fun q =>
    h_blk m c t p q
  have hpre : preRow (iblk m c 0 t) (iblk m c 1 t) (iblk m c 2 t) (iblk m c 3 t) (iblk m c 4 t) p = preOf (m ((c : Thread nD τ).loc main_arg0)) (m ((c : Thread nD τ).loc main_arg1)) (m ((c : Thread nD τ).loc main_arg2)) (m ((c : Thread nD τ).loc main_arg3)) (m ((c : Thread nD τ).loc main_arg4)) (row t p) := by
    funext g
    unfold preRow preOf
    simp only [x_blk, h_blk, wg, ug, bg]
  have hlin : linRow (iblk m c 0 t) (iblk m c 2 t) (iblk m c 4 t) p = linOf (m ((c : Thread nD τ).loc main_arg0)) (m ((c : Thread nD τ).loc main_arg5)) (m ((c : Thread nD τ).loc main_arg6)) (row t p) := by
    funext q
    unfold linRow linOf
    simp only [x_blk, wq, bq]
  have hrec : recRow (iblk m c 1 t) (iblk m c 3 t) p = recOf (m ((c : Thread nD τ).loc main_arg1)) (m ((c : Thread nD τ).loc main_arg7)) (row t p) := by
    funext q
    unfold recRow recOf
    simp only [h_blk, uq]
  rw [hpre, hlin, hrec, hh, hg1, hb1, hg2, hb2]
  rfl

/-! ## The cover, and the run -/

/-- An index of the result array is in point `t`'s block iff each coordinate is in the block's range on its axis. -/
theorem mem_blk (t : Fin cfg0.N) (i : S65536x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v14).slice (win0_9.rect t)).set ↔ _
  rw [View.set_slice_whole, Rect.mem_set_unit]
  exact Iff.rfl

/-- THE RESULT ARRAY after the run: row `r` lies in the block of point `r / 512`, so the blocks cover the array. -/
theorem final (c : Dev nD) : (dats m 0 c).arrAt 9 cfg0.N = kernelResult m c :=
  (dats m 0 c).arrAt_eq_of_cover 9 (kernelResult m c) (fun t _ => flushed_eq m c t) fun i => by
    have hN : cfg0.N = 128 := N_0
    have hi0 : (i 0).val < 65536 := (i 0).isLt
    have hi1 : (i 1).val < 512 := (i 1).isLt
    have ht : (i 0).val / 512 < cfg0.N := by omega
    refine ⟨⟨(i 0).val / 512, ht⟩, flush0_9 _, ?_⟩
    rw [mem_blk]
    obtain ⟨f0, f1, f2, f3, f4, f5, f6, f7, f8, f9, f10, f11, f12, f13, f14, f15, f16, f17, f18, f19⟩ := idx_facts ⟨(i 0).val / 512, ht⟩
    intro a
    match a with
    | ⟨0, _⟩ =>
      show win0_9.index ⟨(i 0).val / 512, ht⟩ (0 : Fin 2) * 512 ≤ (i 0).val ∧ (i 0).val < win0_9.index ⟨(i 0).val / 512, ht⟩ (0 : Fin 2) * 512 + 512
      rw [f4]
      show (i 0).val / 512 * 512 ≤ (i 0).val ∧ (i 0).val < (i 0).val / 512 * 512 + 512
      omega
    | ⟨1, _⟩ =>
      show win0_9.index ⟨(i 0).val / 512, ht⟩ (1 : Fin 2) * 512 ≤ (i 1).val ∧ (i 1).val < win0_9.index ⟨(i 0).val / 512, ht⟩ (1 : Fin 2) * 512 + 512
      rw [f5]
      omega

/-- The kernel's run: every weakly fair execution terminates with the result array at `kernelResult` and the
    argument arrays as launched (the frame run's final contents, read). -/
theorem run : θ_run defs (onTc (τ := τ) (main (F := Ideal))) ⟨m, fun _ => 0, ρ⟩ fun r => ∀ c : Dev nD,
      r.2.mem ((c : Thread nD τ).loc main_v14) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Gru.Blocks

end
-- ==== Proof.lean ====
/-
  The gated recurrent cell with layer normalisation: a batch-tiled kernel against its whole-array reference.

  The kernel runs 128 grid points, each on a tile of 512 batch rows: it multiplies the tile's inputs and states by
  two fused weight matrices (gate and candidate columns side by side, transposed and concatenated before the region),
  layer-normalises the 1024 gate pre-activations of each row, takes the logistic, forms the candidate from the reset
  half of the gates, layer-normalises its 512 entries, takes tanh and blends with the old state by the update half.
  The reference does the same with four separate products on the whole [65536, ·] arrays.
  On the extended reals both end with the same array: entry (r, j) is `Gru.out` of row r's pre-activations
  (GruSpec.lean). Every step of the two programs is the same operation on the same numbers — a sum over a row or
  over the 512 contracted coordinates, a quotient by the same count word, the same ε word, the logistic either as
  one operation or spelt 1 / (1 + exp (−·)) — in the same grouping; only the arrangement differs (fused against
  separate products, tiles against whole arrays, slices against separate arrays), so no law that needs finite
  inputs is used and the precondition is never opened.
  The three frames are the generated ones (the reference's from its generated run); the ideal pass rewrote nothing.
-/
import proofs.«129963_j41712722378993_2_alg».proof.Defs
import proofs.«129963_j41712722378993_2_alg».proof.Proof.Gen.Kernel
import proofs.«129963_j41712722378993_2_alg».proof.Proof.Gen.Kernel.Skeleton
import proofs.«129963_j41712722378993_2_alg».proof.Proof.Gen.Kernel.Launch
import proofs.«129963_j41712722378993_2_alg».proof.Proof.Gen.Kernel.Points
import proofs.«129963_j41712722378993_2_alg».proof.Proof.Gen.Kernel.Frame
import proofs.«129963_j41712722378993_2_alg».proof.Proof.Gen.KernelIdeal
import proofs.«129963_j41712722378993_2_alg».proof.Proof.Gen.KernelIdeal.Skeleton
import proofs.«129963_j41712722378993_2_alg».proof.Proof.Gen.KernelIdeal.Launch
import proofs.«129963_j41712722378993_2_alg».proof.Proof.Gen.KernelIdeal.Points
import proofs.«129963_j41712722378993_2_alg».proof.Proof.Gen.KernelIdeal.Frame
import proofs.«129963_j41712722378993_2_alg».proof.Proof.Gen.ReferenceIdeal
import proofs.«129963_j41712722378993_2_alg».proof.Proof.Gen.Pre_finite_inputs
import proofs.«129963_j41712722378993_2_alg».proof.Proof.Gen.ReferenceIdeal.Run
import proofs.«129963_j41712722378993_2_alg».proof.Proof.Gen.ReferenceIdeal.Read
import proofs.«129963_j41712722378993_2_alg».proof.Proof.GruRef
import proofs.«129963_j41712722378993_2_alg».proof.Proof.GruBlocks
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the cell of every batch row of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Gru.Blocks.kernelResult m c, Gru.Blocks.run m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v78_eq, Gru.Ref.result_eq, a0, a1, a2, a3, a4, a5, a6, a7, a8, a9, a10, a11]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
